-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x512 : Shape := ⟨3, ![64, 256, 512]⟩
abbrev S64x1024x512 : Shape := ⟨3, ![64, 1024, 512]⟩
abbrev S_ : Shape := ⟨0, ![]⟩

class Facts : Prop where
  bcast_S_S64x256x512 : S_.BroadcastsInDim S64x256x512 (![] : Fin 0 → Fin S64x256x512.rank)
  reducesTo_S64x256x512_S_d0_1_2 : S64x256x512.ReducesTo [0, 1, 2] S_
  h_S_ : 0 < S_.numel
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn {F : FTy → Type} [FloatOps F] (main_arg0 : FVec F S64x256x512 .f32) (main_arg1 : FVec F S64x1024x512 .f32) : IVec S_ 1 :=
  let main_v0 : FVec F S64x256x512 .f32 := Host.absf main_arg0
  let main_cst : FVec F S_ .f32 := constant S_ .f32 0x7F800000#32
  let main_v1 : FVec F S64x256x512 .f32 := broadcastInDim S64x256x512 ![] bcast_S_S64x256x512 main_cst
  let main_v2 : IVec S64x256x512 1 := cmpf .olt main_v0 main_v1
  let main_c : IVec S_ 1 := constantI S_ 1 1#1
  let main_v3 : IVec S_ 1 := (fun x v => Host.reduce IntOp.andi x v reducesTo_S64x256x512_S_d0_1_2 h_S_) main_v2 main_c
  let main_v4 : FVec F S64x1024x512 .f32 := Host.absf main_arg1
  let main_cst_0 : FVec F S_ .f32 := constant S_ .f32 0x7F800000#32
  let main_v5 : FVec F S64x1024x512 .f32 := broadcastInDim S64x1024x512 ![] bcast_S_S64x1024x512 main_cst_0
  let main_v6 : IVec S64x1024x512 1 := cmpf .olt main_v4 main_v5
  let main_c_1 : IVec S_ 1 := constantI S_ 1 1#1
  let main_v7 : IVec S_ 1 := (fun x v => Host.reduce IntOp.andi x v reducesTo_S64x1024x512_S_d0_1_2 h_S_) main_v6 main_c_1
  let main_v8 : IVec S_ 1 := andi main_v3 main_v7
  main_v8
-- ==== Kernel.lean ====
abbrev S64x256x512 : Shape := ⟨3, ![64, 256, 512]⟩
abbrev S64x1024x512 : Shape := ⟨3, ![64, 1024, 512]⟩
abbrev S2x256x512 : Shape := ⟨3, ![2, 256, 512]⟩
abbrev S2x1024x512 : Shape := ⟨3, ![2, 1024, 512]⟩
abbrev S2x512 : Shape := ⟨2, ![2, 512]⟩
abbrev S2x1x512 : Shape := ⟨3, ![2, 1, 512]⟩

abbrev nBuf : Space → Nat
  | .hbm => 4
  | .vmem => 8
  | .smem => 0
  | _ => 0

abbrev bufTy : (tb : Table) → Fin (tcTables nBuf tb) → BufTy
  | .hbm, ⟨0, _⟩ => ⟨S64x256x512, .f32⟩
  | .hbm, ⟨1, _⟩ => ⟨S64x1024x512, .f32⟩
  | .hbm, ⟨2, _⟩ => ⟨S64x256x512, .f32⟩
  | .hbm, ⟨3, _⟩ => ⟨S64x1024x512, .f32⟩
  | .local _ .vmem, ⟨0, _⟩ => ⟨S2x256x512, .f32⟩
  | .local _ .vmem, ⟨1, _⟩ => ⟨S2x256x512, .f32⟩
  | .local _ .vmem, ⟨2, _⟩ => ⟨S2x1024x512, .f32⟩
  | .local _ .vmem, ⟨3, _⟩ => ⟨S2x1024x512, .f32⟩
  | .local _ .vmem, ⟨4, _⟩ => ⟨S2x256x512, .f32⟩
  | .local _ .vmem, ⟨5, _⟩ => ⟨S2x256x512, .f32⟩
  | .local _ .vmem, ⟨6, _⟩ => ⟨S2x1024x512, .f32⟩
  | .local _ .vmem, ⟨7, _⟩ => ⟨S2x1024x512, .f32⟩
  | _, _ => ⟨S64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2x256x512_S2x256x512_0_0_0 : ∀ a, (![0, 0, 0] : Fin 3 → Nat) a + S2x256x512.size a ≤ S2x256x512.size a
  h_S2x256x512 : 0 < S2x256x512.numel
  inb_S2x1024x512_S2x1024x512_0_0_0 : ∀ a, (![0, 0, 0] : Fin 3 → Nat) a + S2x1024x512.size a ≤ S2x1024x512.size a
  h_S2x1024x512 : 0 < S2x1024x512.numel
  reduces_S2x256x512_S2x512 : S2x256x512.Reduces [1] S2x512
  shapeCasts_S2x512_S2x1x512 : S2x512.ShapeCasts S2x1x512
  reduces_S2x1024x512_S2x512 : S2x1024x512.Reduces [1] S2x512
  broadcasts_S2x1x512_S2x256x512 : S2x1x512.Broadcasts S2x256x512
  broadcasts_S2x1x512_S2x1024x512 : S2x1x512.Broadcasts S2x1024x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S64x256x512.size a
  hwx0_0 : ∀ i : grid0.Coords, EltTy.bits .f32 = 32 ∨ (Rect.block (s := S64x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x512.size a ≤ S64x1024x512.size a
  hwx0_1 : ∀ i : grid0.Coords, EltTy.bits .f32 = 32 ∨ (Rect.block (s := S64x1024x512) S2x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x512.size a ≤ S64x256x512.size a
  hwx0_2 : ∀ i : grid0.Coords, EltTy.bits .f32 = 32 ∨ (Rect.block (s := S64x256x512) S2x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x512.size a ≤ S64x1024x512.size a
  hwx0_3 : ∀ i : grid0.Coords, EltTy.bits .f32 = 32 ∨ (Rect.block (s := S64x1024x512) S2x1024x512.size (cc0_transform_3 i) (hinb0_3 i)).WholeWords (EltTy.packing .f32)

variable [Facts₀]

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S2x256x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S2x1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x512 : Shape := ⟨3, ![64, 256, 512]⟩
abbrev S64x1024x512 : Shape := ⟨3, ![64, 1024, 512]⟩
abbrev S_ : Shape := ⟨0, ![]⟩
abbrev S64x512 : Shape := ⟨2, ![64, 512]⟩
abbrev S64x1x512 : Shape := ⟨3, ![64, 1, 512]⟩

abbrev nBuf : Space → Nat
  | .hbm => 12
  | .vmem => 0
  | .smem => 0
  | _ => 0

abbrev bufTy : (tb : Table) → Fin (tcTables nBuf tb) → BufTy
  | .hbm, ⟨0, _⟩ => ⟨S64x256x512, .f32⟩
  | .hbm, ⟨1, _⟩ => ⟨S64x1024x512, .f32⟩
  | .hbm, ⟨2, _⟩ => ⟨S_, .f32⟩
  | .hbm, ⟨3, _⟩ => ⟨S64x512, .f32⟩
  | .hbm, ⟨4, _⟩ => ⟨S64x1x512, .f32⟩
  | .hbm, ⟨5, _⟩ => ⟨S_, .f32⟩
  | .hbm, ⟨6, _⟩ => ⟨S64x512, .f32⟩
  | .hbm, ⟨7, _⟩ => ⟨S64x1x512, .f32⟩
  | .hbm, ⟨8, _⟩ => ⟨S64x256x512, .f32⟩
  | .hbm, ⟨9, _⟩ => ⟨S64x256x512, .f32⟩
  | .hbm, ⟨10, _⟩ => ⟨S64x1024x512, .f32⟩
  | .hbm, ⟨11, _⟩ => ⟨S64x1024x512, .f32⟩
  | _, _ => ⟨S64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S64x1024x512_S64x512_d1 : S64x1024x512.ReducesTo [1] S64x512
  h_S_ : 0 < S_.numel
  bcast_S64x512_S64x1x512_0_2 : S64x512.BroadcastsInDim S64x1x512 (![0, 2] : Fin 2 → Fin S64x1x512.rank)
  reducesTo_S64x256x512_S64x512_d1 : S64x256x512.ReducesTo [1] S64x512
  bcast_S64x1x512_S64x256x512_0_1_2 : S64x1x512.BroadcastsInDim S64x256x512 (![0, 1, 2] : Fin 3 → Fin S64x256x512.rank)
  bcast_S64x1x512_S64x1024x512_0_1_2 : S64x1x512.BroadcastsInDim S64x1024x512 (![0, 1, 2] : Fin 3 → Fin S64x1024x512.rank)

variable [Facts₀]

class Facts : Prop extends Facts₀ where

variable [Facts]
-- ==== Proof.Spec.lean ====
/-
  The two results as functions of the two argument arrays, index by index, on the extended reals.

  The arguments are a "user" array x of shape [64, 256, 512] and an "image" array y of shape [64, 1024, 512]; the first
  axis is the batch, the second the rows (256 user rows, 1024 image rows) and the third the 512 features. For a batch
  b and a feature d, the image rows' sum is Σ_k y[b, k, d] and the user rows' sum is Σ_k x[b, k, d]. The two results are

      userTimesImageSum x y [b, r, d] = x[b, r, d] · Σ_{k < 1024} y[b, k, d]
      imageTimesUserSum x y [b, r, d] = y[b, r, d] · Σ_{k < 256}  x[b, k, d].

  Both programs compute exactly these products; they differ only in how the work is cut up (the kernel takes two
  batches at a time and sums inside a block, the reference sums over the whole array), so no law of the extended
  reals beyond 0 + s = s is needed to join them, and finiteness of the inputs is never used.
-/
import Idealize.ShloMosaic.PureOps.Ideal
import Idealize.ShloMosaic.Lib.ValueIdx

noncomputable section

open scoped BigOperators

namespace Cert.Interaction

open Idealize.ShloMosaic Idealize.ShloMosaic.ValueIdx

/-- The user array's shape: 64 batches of 256 rows of 512 features. -/
abbrev UserShape : Shape := ⟨3, ![64, 256, 512]⟩
/-- The image array's shape: 64 batches of 1024 rows of 512 features. -/
abbrev ImageShape : Shape := ⟨3, ![64, 1024, 512]⟩

/-- Σ_k y[b, k, d]: the sum of the 1024 image rows of batch `b` at feature `d`. -/
def imageRowSum (y : ImageShape.Idx → EReal) (b : Fin 64) (d : Fin 512) : EReal :=
  ∑ k : Fin 1024, y (ix3 b k d)

/-- Σ_k x[b, k, d]: the sum of the 256 user rows of batch `b` at feature `d`. -/
def userRowSum (x : UserShape.Idx → EReal) (b : Fin 64) (d : Fin 512) : EReal :=
  ∑ k : Fin 256, x (ix3 b k d)

/-- The first result: each user entry times the sum of its batch's image rows at the same feature. -/
def userTimesImageSum (x : UserShape.Idx → EReal) (y : ImageShape.Idx → EReal) : UserShape.Idx → EReal :=
  fun i => x i * imageRowSum y (i 0) (i 2)

/-- The second result: each image entry times the sum of its batch's user rows at the same feature. -/
def imageTimesUserSum (x : UserShape.Idx → EReal) (y : ImageShape.Idx → EReal) : ImageShape.Idx → EReal :=
  fun i => y i * userRowSum x (i 0) (i 2)

end Cert.Interaction

end
-- ==== Proof.RefValue.lean ====
/-
  The reference's two results are the specification's two functions.

  The reference sums each array over its row axis on the host (initial value: the zero word, which denotes 0), re-inserts
  the summed axis as a unit axis, broadcasts the [64, 1, 512] row back over the rows of the OTHER array and multiplies.
  Read at an index [b, r, d], the chain of broadcasts lands on the sum's index [b, d], and the host sum there is
  0 + Σ_k y[b, k, d]: the specification's row sum.
-/
import proofs.«130879_j3942779977809_2_alg».proof.Proof.Gen.ReferenceIdeal.Read
import proofs.«130879_j3942779977809_2_alg».proof.Proof.Spec

noncomputable section

open scoped BigOperators

namespace Cert.Interaction.Ref

open Idealize.ShloMosaic Idealize.ShloMosaic.ValueIdx Cert.ReferenceIdeal Cert.ReferenceIdeal.Read

/-- The first result of the reference: x[b, r, d] · (0 + Σ_k y[b, k, d]). -/
theorem user_result (x : (⟨S64x256x512, .f32⟩ : BufTy).Contents (Elt Ideal))
    (y : (⟨S64x1024x512, .f32⟩ : BufTy).Contents (Elt Ideal)) :
    val_main_v5 (F := Ideal) x y = userTimesImageSum x y := by
  funext i
  rw [val_main_v5_apply, val_main_v4_apply, val_main_v1_apply, val_main_v0_apply, val_main_cst_apply]
  simp only [Ideal.mulf_def, Ideal.ofBits_def, Ideal.ofBits_zero_f32, zero_add]
  refine congrArg (x i * ·) (Finset.sum_congr rfl fun k _ => congrArg y ?_)
  funext a; apply Fin.ext
  match a with | ⟨0, _⟩ => rfl | ⟨1, _⟩ => rfl | ⟨2, _⟩ => rfl

/-- The second result of the reference: y[b, r, d] · (0 + Σ_k x[b, k, d]). -/
theorem image_result (x : (⟨S64x256x512, .f32⟩ : BufTy).Contents (Elt Ideal))
    (y : (⟨S64x1024x512, .f32⟩ : BufTy).Contents (Elt Ideal)) :
    val_main_v7 (F := Ideal) x y = imageTimesUserSum x y := by
  funext i
  rw [val_main_v7_apply, val_main_v6_apply, val_main_v3_apply, val_main_v2_apply, val_main_cst_0_apply]
  simp only [Ideal.mulf_def, Ideal.ofBits_def, Ideal.ofBits_zero_f32, zero_add]
  refine congrArg (y i * ·) (Finset.sum_congr rfl fun k _ => congrArg x ?_)
  funext a; apply Fin.ext
  match a with | ⟨0, _⟩ => rfl | ⟨1, _⟩ => rfl | ⟨2, _⟩ => rfl

end Cert.Interaction.Ref

end
-- ==== Proof.KernelBlock.lean ====
/-
  What the kernel's body leaves in its two output blocks, on the extended reals, as functions of its two input blocks.

  One grid point handles two batches: the body loads a user block x0 of shape [2, 256, 512] and an image block x1 of
  shape [2, 1024, 512], sums each over its row axis (a lane reduction from the neutral accumulator, so the bare sum),
  re-inserts the summed axis, broadcasts the [2, 1, 512] row over the rows of the OTHER block and multiplies. So at a
  block index [b, r, d]

      first output block  = x0[b, r, d] · Σ_{k < 1024} x1[b, k, d]
      second output block = x1[b, r, d] · Σ_{k < 256}  x0[b, k, d].

  The generated value leg has already pushed the index through the shape cast and the broadcast: it gives the block as
  the product of the loaded entry and the lane reduction read at [b, d]. What is added here is the lane reduction
  read as a finite sum, and the coordinates written out.
-/
import proofs.«130879_j3942779977809_2_alg».proof.Proof.Gen.KernelIdeal.Value
import Idealize.ShloMosaic.PureOps.Ideal.Laws
import Idealize.ShloMosaic.Lib.ValueIdx

noncomputable section

open scoped BigOperators

namespace Cert.Interaction.Block

open Idealize.ShloMosaic Idealize.ShloMosaic.ValueIdx Cert.KernelIdeal Cert.KernelIdeal.Gen Cert.KernelIdeal.Value

/-- The offset of a whole-block access is zero on every axis. -/
theorem zero_offset : (![0, 0, 0] : Fin 3 → Nat) = fun _ => 0 := funext fun a => by fin_cases a <;> rfl

/-- The image block summed over its row axis, read at [b, d]: Σ_k x1[b, k, d]. -/
theorem image_block_row_sum (x1 : FVec Ideal S2x1024x512 .f32) (b : Fin 2) (d : Fin 512) :
    multiReduction (F := Ideal) .add [1] S2x512 x1 0x00000000#32 Facts₀.reduces_S2x1024x512_S2x512 (.inl rfl) rfl (ix2 b d)
      = ∑ k : Fin 1024, x1 (ix3 b k d) := by
  refine (Ideal.multiReduction_add_single x1 0x00000000#32 Facts₀.reduces_S2x1024x512_S2x512 (.inl rfl) rfl (ix2 b d)).trans ?_
  show ∑ k : Fin 1024, x1 (Facts₀.reduces_S2x1024x512_S2x512.lift (ix2 b d) k) = _
  refine Finset.sum_congr rfl fun k _ => congrArg x1 ?_
  funext a; apply Fin.ext
  match a with | ⟨0, _⟩ => rfl | ⟨1, _⟩ => rfl | ⟨2, _⟩ => rfl

/-- The user block summed over its row axis, read at [b, d]: Σ_k x0[b, k, d]. -/
theorem user_block_row_sum (x0 : FVec Ideal S2x256x512 .f32) (b : Fin 2) (d : Fin 512) :
    multiReduction (F := Ideal) .add [1] S2x512 x0 0x00000000#32 Facts₀.reduces_S2x256x512_S2x512 (.inl rfl) rfl (ix2 b d)
      = ∑ k : Fin 256, x0 (ix3 b k d) := by
  refine (Ideal.multiReduction_add_single x0 0x00000000#32 Facts₀.reduces_S2x256x512_S2x512 (.inl rfl) rfl (ix2 b d)).trans ?_
  show ∑ k : Fin 256, x0 (Facts₀.reduces_S2x256x512_S2x512.lift (ix2 b d) k) = _
  refine Finset.sum_congr rfl fun k _ => congrArg x0 ?_
  funext a; apply Fin.ext
  match a with | ⟨0, _⟩ => rfl | ⟨1, _⟩ => rfl | ⟨2, _⟩ => rfl

/-- The first output block at [b, r, d]: the user entry times the image block's row sum. -/
theorem user_out_block (x0 : FVec Ideal S2x256x512 .f32) (x1 : FVec Ideal S2x1024x512 .f32)
    (b : Fin 2) (r : Fin 256) (d : Fin 512) :
    out0_2 (F := Ideal) x0 x1 (ix3 b r d) = x0 (ix3 b r d) * ∑ k : Fin 1024, x1 (ix3 b k d) := by
  unfold out0_2
  rw [View.ld_unit_zero (S := S2x256x512) zero_offset, View.ld_unit_zero (S := S2x1024x512) zero_offset, canon2_eq]
  have e0 : ix2_0 (ix3 b r d) = ix3 b r d :=
    funext fun a => Fin.ext (by match a with | ⟨0, _⟩ => rfl | ⟨1, _⟩ => rfl | ⟨2, _⟩ => rfl)
  have e1 : ix2_1 (ix3 b r d) = ix2 b d :=
    funext fun a => Fin.ext (by match a with | ⟨0, _⟩ => rfl | ⟨1, _⟩ => rfl)
  show x0 (ix2_0 (ix3 b r d)) * multiReduction (F := Ideal) .add [1] S2x512 x1 0x00000000#32 Facts₀.reduces_S2x1024x512_S2x512
      (.inl rfl) rfl (ix2_1 (ix3 b r d)) = _
  rw [e0, e1, image_block_row_sum]

/-- The second output block at [b, r, d]: the image entry times the user block's row sum. -/
theorem image_out_block (x0 : FVec Ideal S2x256x512 .f32) (x1 : FVec Ideal S2x1024x512 .f32)
    (b : Fin 2) (r : Fin 1024) (d : Fin 512) :
    out0_3 (F := Ideal) x0 x1 (ix3 b r d) = x1 (ix3 b r d) * ∑ k : Fin 256, x0 (ix3 b k d) := by
  unfold out0_3
  rw [View.ld_unit_zero (S := S2x256x512) zero_offset, View.ld_unit_zero (S := S2x1024x512) zero_offset, canon3_eq]
  have e0 : ix3_0 (ix3 b r d) = ix3 b r d :=
    funext fun a => Fin.ext (by match a with | ⟨0, _⟩ => rfl | ⟨1, _⟩ => rfl | ⟨2, _⟩ => rfl)
  have e1 : ix3_1 (ix3 b r d) = ix2 b d :=
    funext fun a => Fin.ext (by match a with | ⟨0, _⟩ => rfl | ⟨1, _⟩ => rfl)
  show x1 (ix3_0 (ix3 b r d)) * multiReduction (F := Ideal) .add [1] S2x512 x0 0x00000000#32 Facts₀.reduces_S2x256x512_S2x512
      (.inl rfl) rfl (ix3_1 (ix3 b r d)) = _
  rw [e0, e1, user_block_row_sum]

/-- The first output block at any block index `j`, its coordinates read off `j`. -/
theorem user_out_block_at (x0 : FVec Ideal S2x256x512 .f32) (x1 : FVec Ideal S2x1024x512 .f32) (j : S2x256x512.Idx) :
    out0_2 (F := Ideal) x0 x1 j = x0 j * ∑ k : Fin 1024, x1 (ix3 (j 0) k (j 2)) := by
  obtain ⟨b, r, d, rfl⟩ : ∃ (b : Fin 2) (r : Fin 256) (d : Fin 512), j = ix3 b r d := ⟨j 0, j 1, j 2, eq_ix3 j⟩
  exact user_out_block x0 x1 b r d

/-- The second output block at any block index `j`, its coordinates read off `j`. -/
theorem image_out_block_at (x0 : FVec Ideal S2x256x512 .f32) (x1 : FVec Ideal S2x1024x512 .f32) (j : S2x1024x512.Idx) :
    out0_3 (F := Ideal) x0 x1 j = x1 j * ∑ k : Fin 256, x0 (ix3 (j 0) k (j 2)) := by
  obtain ⟨b, r, d, rfl⟩ : ∃ (b : Fin 2) (r : Fin 1024) (d : Fin 512), j = ix3 b r d := ⟨j 0, j 1, j 2, eq_ix3 j⟩
  exact image_out_block x0 x1 b r d

end Cert.Interaction.Block

end
-- ==== Proof.KernelArray.lean ====
/-
  From blocks to arrays: after the kernel's run each output array is the specification's function of the argument arrays.

  The grid has 32 points; point t stages batches 2t and 2t + 1 of every array: each window's block index at t is
  (t, 0, 0), the blocks being two batches deep and whole on the row and feature axes. So the entry [p, r, d] of a block
  at t is the array entry [2t + p, r, d], a block holds all the rows of its two batches — the row sum inside the block IS
  the row sum of the array for that batch — and the blocks of the 32 points tile the 64 batches: the entry [b, r, d] lies
  in the block of point b / 2.
-/
import proofs.«130879_j3942779977809_2_alg».proof.Proof.Gen.KernelIdeal.Value
import proofs.«130879_j3942779977809_2_alg».proof.Proof.Spec
import proofs.«130879_j3942779977809_2_alg».proof.Proof.KernelBlock

noncomputable section

open scoped BigOperators

namespace Cert.Interaction.Array

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- Every window's block index at point `t` is (t, 0, 0): decided over the 32 points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-! ## The first result -/

/-- One entry of one point's block, over any arrays and any three placements of blocks in arrays: if the user block's
    entry `j` and the output block's entry `j` sit at the same array index, and row `k` of the image block (same batch
    and feature as `j`) sits at row `k` of the array in the output entry's batch and at its feature, then the block's
    product is the specification's product at the output entry's array index. -/
theorem user_entry (X : UserShape.Idx → EReal) (Y : ImageShape.Idx → EReal)
    (eu eo : S2x256x512.Idx → UserShape.Idx) (ei : S2x1024x512.Idx → ImageShape.Idx) (j : S2x256x512.Idx)
    (hu : eu j = eo j)
    (hi : ∀ k : Fin 1024, ei (ix3 (j 0) k (j 2)) = ix3 ((eo j) 0) k ((eo j) 2)) :
    X (eu j) * ∑ k : Fin 1024, Y (ei (ix3 (j 0) k (j 2))) = userTimesImageSum X Y (eo j) := by
  rw [hu]
  exact congrArg (X (eo j) * ·) (Finset.sum_congr rfl fun k _ => congrArg Y (hi k))

/-- What point `t` writes back to the first result's array is block `t` of the specification's function. -/
theorem user_flushed (c : Dev nD) (t : Fin cfg0.N) :
    (dats m 0 c).flushed 2 t
      = ((cfg0.win 2).blk t).view.read (Elt Ideal) (userTimesImageSum (V m c main_arg0) (V m c main_arg1)) := by
  rw [flushed2]
  obtain ⟨⟨a0, a1, a2⟩, ⟨b0, b1, b2⟩, ⟨c0, c1, c2⟩, -⟩ := block_index t
  funext j
  refine (Block.user_out_block_at (iblk m c 0 t) (iblk m c 1 t) j).trans ?_
  have hj0 : (j 0).val < 2 := (j 0).isLt
  have hj1 : (j 1).val < 256 := (j 1).isLt
  have hj2 : (j 2).val < 512 := (j 2).isLt
  -- the user block's entry is the array's entry under the output block's index
  have hu : ((cfg0.win 0).blk t).view.emb j = ((cfg0.win 2).blk t).view.emb j := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 512 + 1 * (j 2).val = win0_2.index t (2 : Fin 3) * 512 + 1 * (j 2).val; omega
  -- row k of the image block is row k of the array, in the same batch and at the same feature
  have hi : ∀ k : Fin 1024, ((cfg0.win 1).blk t).view.emb (ix3 (j 0) k (j 2))
      = ix3 ((((cfg0.win 2).blk t).view.emb j) 0) k ((((cfg0.win 2).blk t).view.emb j) 2) := by
    intro k
    have hk : k.val < 1024 := k.isLt
    funext a; apply Fin.ext
    match a with
    | ⟨0, _⟩ => show win0_1.index t (0 : Fin 3) * 2 + 1 * (j 0).val = win0_2.index t (0 : Fin 3) * 2 + 1 * (j 0).val; omega
    | ⟨1, _⟩ => show win0_1.index t (1 : Fin 3) * 1024 + 1 * k.val = k.val; omega
    | ⟨2, _⟩ => show win0_1.index t (2 : Fin 3) * 512 + 1 * (j 2).val = win0_2.index t (2 : Fin 3) * 512 + 1 * (j 2).val; omega
  exact user_entry (V m c main_arg0) (V m c main_arg1) ((cfg0.win 0).blk t).view.emb ((cfg0.win 2).blk t).view.emb
    ((cfg0.win 1).blk t).view.emb j hu hi

/-- An index of the first result's array is in point `t`'s block iff each coordinate is in the block's range. -/
theorem user_mem_block (t : Fin cfg0.N) (i : S64x256x512.Idx) :
    i ∈ ((cfg0.win 2).blk t).view.set ↔ ∀ a : Fin 3, win0_2.index t a * S2x256x512.size a ≤ (i a).val
      ∧ (i a).val < win0_2.index t a * S2x256x512.size a + S2x256x512.size a := by
  show i ∈ ((View.whole main_v0_0).slice (win0_2.rect t)).set ↔ _
  rw [View.set_slice_whole, Rect.mem_set_unit]
  exact Iff.rfl

/-- Every entry [b, r, d] of the first result's array is in the block of point b / 2. -/
theorem user_cover (i : S64x256x512.Idx) :
    ∃ t : Fin cfg0.N, (cfg0.win 2).flush t = true ∧ i ∈ ((cfg0.win 2).blk t).view.set := by
  have hi0 : (i 0).val < 64 := (i 0).isLt
  have hi1 : (i 1).val < 256 := (i 1).isLt
  have hi2 : (i 2).val < 512 := (i 2).isLt
  have hN : cfg0.N = 32 := N_0
  refine ⟨⟨(i 0).val / 2, by rw [hN]; omega⟩, flush0_2 _, ?_⟩
  obtain ⟨-, -, ⟨c0, c1, c2⟩, -⟩ := block_index ⟨(i 0).val / 2, by rw [hN]; omega⟩
  rw [user_mem_block]
  intro a
  match a with
  | ⟨0, _⟩ => show win0_2.index _ (0 : Fin 3) * 2 ≤ (i 0).val ∧ (i 0).val < win0_2.index _ (0 : Fin 3) * 2 + 2; rw [c0]; show (i 0).val / 2 * 2 ≤ (i 0).val ∧ (i 0).val < (i 0).val / 2 * 2 + 2; omega
  | ⟨1, _⟩ => show win0_2.index _ (1 : Fin 3) * 256 ≤ (i 1).val ∧ (i 1).val < win0_2.index _ (1 : Fin 3) * 256 + 256; rw [c1]; omega
  | ⟨2, _⟩ => show win0_2.index _ (2 : Fin 3) * 512 ≤ (i 2).val ∧ (i 2).val < win0_2.index _ (2 : Fin 3) * 512 + 512; rw [c2]; omega

/-- The first result's array after the run. -/
theorem user_final (c : Dev nD) :
    (dats m 0 c).arrAt 2 cfg0.N = userTimesImageSum (V m c main_arg0) (V m c main_arg1) :=
  (dats m 0 c).arrAt_eq_of_cover 2 (userTimesImageSum (V m c main_arg0) (V m c main_arg1))
    (fun t _ => user_flushed m c t) user_cover

/-! ## The second result -/

/-- One entry of one point's block of the second result, over any arrays and any three placements of blocks in arrays:
    the image block's entry `j` and the output block's entry `j` at the same array index, row `k` of the user block at
    row `k` of the array in the output entry's batch and at its feature. -/
theorem image_entry (X : UserShape.Idx → EReal) (Y : ImageShape.Idx → EReal)
    (eu : S2x256x512.Idx → UserShape.Idx) (ei eo : S2x1024x512.Idx → ImageShape.Idx) (j : S2x1024x512.Idx)
    (hi : ei j = eo j)
    (hu : ∀ k : Fin 256, eu (ix3 (j 0) k (j 2)) = ix3 ((eo j) 0) k ((eo j) 2)) :
    Y (ei j) * ∑ k : Fin 256, X (eu (ix3 (j 0) k (j 2))) = imageTimesUserSum X Y (eo j) := by
  rw [hi]
  exact congrArg (Y (eo j) * ·) (Finset.sum_congr rfl fun k _ => congrArg X (hu k))

/-- What point `t` writes back to the second result's array is block `t` of the specification's function. -/
theorem image_flushed (c : Dev nD) (t : Fin cfg0.N) :
    (dats m 0 c).flushed 3 t
      = ((cfg0.win 3).blk t).view.read (Elt Ideal) (imageTimesUserSum (V m c main_arg0) (V m c main_arg1)) := by
  rw [flushed3]
  obtain ⟨⟨a0, a1, a2⟩, ⟨b0, b1, b2⟩, -, ⟨d0, d1, d2⟩⟩ := block_index t
  funext j
  refine (Block.image_out_block_at (iblk m c 0 t) (iblk m c 1 t) j).trans ?_
  have hj0 : (j 0).val < 2 := (j 0).isLt
  have hj1 : (j 1).val < 1024 := (j 1).isLt
  have hj2 : (j 2).val < 512 := (j 2).isLt
  -- the image block's entry is the array's entry under the output block's index
  have hi : ((cfg0.win 1).blk t).view.emb j = ((cfg0.win 3).blk t).view.emb j := by
    funext a; apply Fin.ext
    match a with
    | ⟨0, _⟩ => show win0_1.index t (0 : Fin 3) * 2 + 1 * (j 0).val = win0_3.index t (0 : Fin 3) * 2 + 1 * (j 0).val; omega
    | ⟨1, _⟩ => show win0_1.index t (1 : Fin 3) * 1024 + 1 * (j 1).val = win0_3.index t (1 : Fin 3) * 1024 + 1 * (j 1).val; omega
    | ⟨2, _⟩ => show win0_1.index t (2 : Fin 3) * 512 + 1 * (j 2).val = win0_3.index t (2 : Fin 3) * 512 + 1 * (j 2).val; omega
  -- row k of the user block is row k of the array, in the same batch and at the same feature
  have hu : ∀ k : Fin 256, ((cfg0.win 0).blk t).view.emb (ix3 (j 0) k (j 2))
      = ix3 ((((cfg0.win 3).blk t).view.emb j) 0) k ((((cfg0.win 3).blk t).view.emb j) 2) := by
    intro k
    have hk : k.val < 256 := k.isLt
    funext a; apply Fin.ext
    match a with
    | ⟨0, _⟩ => show win0_0.index t (0 : Fin 3) * 2 + 1 * (j 0).val = win0_3.index t (0 : Fin 3) * 2 + 1 * (j 0).val; omega
    | ⟨1, _⟩ => show win0_0.index t (1 : Fin 3) * 256 + 1 * k.val = k.val; omega
    | ⟨2, _⟩ => show win0_0.index t (2 : Fin 3) * 512 + 1 * (j 2).val = win0_3.index t (2 : Fin 3) * 512 + 1 * (j 2).val; omega
  exact image_entry (V m c main_arg0) (V m c main_arg1) ((cfg0.win 0).blk t).view.emb ((cfg0.win 1).blk t).view.emb
    ((cfg0.win 3).blk t).view.emb j hi hu

/-- An index of the second result's array is in point `t`'s block iff each coordinate is in the block's range. -/
theorem image_mem_block (t : Fin cfg0.N) (i : S64x1024x512.Idx) :
    i ∈ ((cfg0.win 3).blk t).view.set ↔ ∀ a : Fin 3, win0_3.index t a * S2x1024x512.size a ≤ (i a).val
      ∧ (i a).val < win0_3.index t a * S2x1024x512.size a + S2x1024x512.size a := by
  show i ∈ ((View.whole main_v0_1).slice (win0_3.rect t)).set ↔ _
  rw [View.set_slice_whole, Rect.mem_set_unit]
  exact Iff.rfl

/-- Every entry [b, r, d] of the second result's array is in the block of point b / 2. -/
theorem image_cover (i : S64x1024x512.Idx) :
    ∃ t : Fin cfg0.N, (cfg0.win 3).flush t = true ∧ i ∈ ((cfg0.win 3).blk t).view.set := by
  have hi0 : (i 0).val < 64 := (i 0).isLt
  have hi1 : (i 1).val < 1024 := (i 1).isLt
  have hi2 : (i 2).val < 512 := (i 2).isLt
  have hN : cfg0.N = 32 := N_0
  refine ⟨⟨(i 0).val / 2, by rw [hN]; omega⟩, flush0_3 _, ?_⟩
  obtain ⟨-, -, -, ⟨d0, d1, d2⟩⟩ := block_index ⟨(i 0).val / 2, by rw [hN]; omega⟩
  rw [image_mem_block]
  intro a
  match a with
  | ⟨0, _⟩ => show win0_3.index _ (0 : Fin 3) * 2 ≤ (i 0).val ∧ (i 0).val < win0_3.index _ (0 : Fin 3) * 2 + 2; rw [d0]; show (i 0).val / 2 * 2 ≤ (i 0).val ∧ (i 0).val < (i 0).val / 2 * 2 + 2; omega
  | ⟨1, _⟩ => show win0_3.index _ (1 : Fin 3) * 1024 ≤ (i 1).val ∧ (i 1).val < win0_3.index _ (1 : Fin 3) * 1024 + 1024; rw [d1]; omega
  | ⟨2, _⟩ => show win0_3.index _ (2 : Fin 3) * 512 ≤ (i 2).val ∧ (i 2).val < win0_3.index _ (2 : Fin 3) * 512 + 512; rw [d2]; omega

/-- The second result's array after the run. -/
theorem image_final (c : Dev nD) :
    (dats m 0 c).arrAt 3 cfg0.N = imageTimesUserSum (V m c main_arg0) (V m c main_arg1) :=
  (dats m 0 c).arrAt_eq_of_cover 3 (imageTimesUserSum (V m c main_arg0) (V m c main_arg1))
    (fun t _ => image_flushed m c t) image_cover

/-! ## The run -/

/-- Every weakly fair execution of the kernel's program on the extended reals terminates with the two result arrays at
    the specification's two functions of the argument arrays, and the argument arrays unchanged. -/
theorem run : θ_run defs (onTc (τ := τ) (main (F := Ideal))) ⟨m, fun _ => 0, ρ⟩ fun r => ∀ c : Dev nD,
      r.2.mem ((c : Thread nD τ).loc main_v0_0)
        = userTimesImageSum (m ((c : Thread nD τ).loc main_arg0)) (m ((c : Thread nD τ).loc main_arg1))
      ∧ r.2.mem ((c : Thread nD τ).loc main_v0_1)
        = imageTimesUserSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (user_final m c), (h c).2.1.trans (image_final m c), (h c).2.2⟩)
    (run_blocks m ρ)

end Cert.Interaction.Array

end
-- ==== Proof.lean ====
/-
  The kernel and its reference compute the same two arrays on the extended reals.

  Arguments: a "user" array x of shape [64, 256, 512] and an "image" array y of shape [64, 1024, 512] (batch, rows,
  features). Results, at an index [b, r, d]:

      first result  = x[b, r, d] · Σ_{k < 1024} y[b, k, d]     (each user entry times its batch's summed image rows)
      second result = y[b, r, d] · Σ_{k < 256}  x[b, k, d]     (each image entry times its batch's summed user rows)

  The kernel walks a grid of 32 points, two batches per point: it loads the two batches' blocks of x and y, sums each
  block over its row axis, and multiplies each block by the other block's row sums. A block holds ALL rows of its two
  batches, so the sum inside the block is the array's row sum for that batch, and the 32 blocks tile the 64 batches. The
  reference sums the whole arrays over the row axis (from the initial value 0), broadcasts and multiplies. The two sides
  are the same products of the same sums; the only arithmetic fact used is 0 + s = s, which holds for every extended
  real, so the inputs' finiteness is never needed.

  The modules: Proof/Spec.lean states the two results as functions of the arguments; Proof/RefValue.lean shows the
  reference's two terms are those functions; Proof/KernelBlock.lean reads the body's two output blocks at an index;
  Proof/KernelArray.lean assembles the blocks into the arrays and re-posts the kernel's run. The idealization rewrote
  nothing, so the kernel read on the extended reals is its own text and the fourth conjunct is trivial.
-/
import proofs.«130879_j3942779977809_2_alg».proof.Defs
import proofs.«130879_j3942779977809_2_alg».proof.Proof.Gen.Kernel
import proofs.«130879_j3942779977809_2_alg».proof.Proof.Gen.Kernel.Skeleton
import proofs.«130879_j3942779977809_2_alg».proof.Proof.Gen.Kernel.Launch
import proofs.«130879_j3942779977809_2_alg».proof.Proof.Gen.Kernel.Points
import proofs.«130879_j3942779977809_2_alg».proof.Proof.Gen.Kernel.Frame
import proofs.«130879_j3942779977809_2_alg».proof.Proof.Gen.KernelIdeal
import proofs.«130879_j3942779977809_2_alg».proof.Proof.Gen.KernelIdeal.Skeleton
import proofs.«130879_j3942779977809_2_alg».proof.Proof.Gen.KernelIdeal.Launch
import proofs.«130879_j3942779977809_2_alg».proof.Proof.Gen.KernelIdeal.Points
import proofs.«130879_j3942779977809_2_alg».proof.Proof.Gen.KernelIdeal.Frame
import proofs.«130879_j3942779977809_2_alg».proof.Proof.Gen.ReferenceIdeal
import proofs.«130879_j3942779977809_2_alg».proof.Proof.Gen.KernelIdeal.Value
import proofs.«130879_j3942779977809_2_alg».proof.Proof.Gen.ReferenceIdeal.Run
import proofs.«130879_j3942779977809_2_alg».proof.Proof.Gen.ReferenceIdeal.Read
import proofs.«130879_j3942779977809_2_alg».proof.Proof.Gen.Pre_finite_inputs
import proofs.«130879_j3942779977809_2_alg».proof.Proof.Spec
import proofs.«130879_j3942779977809_2_alg».proof.Proof.RefValue
import proofs.«130879_j3942779977809_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says about the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- On the extended reals, from memories that agree on x and y, the kernel ends with its two result arrays at the
    specification's two functions of (x, y) (Proof/KernelArray.lean) and the reference ends with its two results at
    its two terms, which are the same two functions (Proof/RefValue.lean) of the same arguments. -/
theorem algebraic : Cert.algebraic_KernelIdeal_ReferenceIdeal := by
  intro m ρ m' ρ' _ hagree
  refine ⟨_, _, Cert.Interaction.Array.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v5_eq, Cert.Interaction.Ref.user_result, (hagree c).1, (hagree c).2]
  · rw [Cert.ReferenceIdeal.Read.val_main_v7_eq, Cert.Interaction.Ref.image_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
